-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S1x64 : Shape := ⟨2, ![1, 64]⟩
abbrev S64x64 : Shape := ⟨2, ![64, 64]⟩
abbrev S1250000x64 : Shape := ⟨2, ![1250000, 64]⟩
abbrev S150000x1 : Shape := ⟨2, ![150000, 1]⟩
abbrev S1250000 : Shape := ⟨1, ![1250000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_
  bcast_S_S1250000x64 : S_.BroadcastsInDim S1250000x64 (![] : Fin 0 → Fin S1250000x64.rank)
  reducesTo_S1250000x64_S_d0_1 : S1250000x64.ReducesTo [0, 1] S_
  bcast_S_S150000x1 : S_.BroadcastsInDim S150000x1 (![] : Fin 0 → Fin S150000x1.rank)
  reducesTo_S150000x1_S_d0_1 : S150000x1.ReducesTo [0, 1] S_

variable [Facts]

def fn_part1 {F : FTy → Type} [FloatOps F] (main_arg4 : FVec F S1250000x64 .f32) (main_arg5 : FVec F S150000x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1250000x64 .f32 := Host.absf main_arg4
  let main_cst_6 : FVec F S_ .f32 := constant S_ .f32 0x7F800000#32
  let main_v20 : FVec F S1250000x64 .f32 := broadcastInDim S1250000x64 ![] bcast_S_S1250000x64 main_cst_6
  let main_v21 : IVec S1250000x64 1 := cmpf .olt main_v19 main_v20
  let main_c_7 : IVec S_ 1 := constantI S_ 1 1#1
  let main_v22 : IVec S_ 1 := (fun x v => Host.reduce IntOp.andi x v reducesTo_S1250000x64_S_d0_1 h_S_) main_v21 main_c_7
  let main_v23 : IVec S_ 1 := andi main_v18 main_v22
  let main_v24 : FVec F S150000x1 .f32 := Host.absf main_arg5
  let main_cst_8 : FVec F S_ .f32 := constant S_ .f32 0x7F800000#32
  let main_v25 : FVec F S150000x1 .f32 := broadcastInDim S150000x1 ![] bcast_S_S150000x1 main_cst_8
  let main_v26 : IVec S150000x1 1 := cmpf .olt main_v24 main_v25
  let main_c_9 : IVec S_ 1 := constantI S_ 1 1#1
  let main_v27 : IVec S_ 1 := (fun x v => Host.reduce IntOp.andi x v reducesTo_S150000x1_S_d0_1 h_S_) main_v26 main_c_9
  let main_v28 : IVec S_ 1 := andi main_v23 main_v27
  main_v28

def fn {F : FTy → Type} [FloatOps F] (main_arg0 : FVec F S150000x64 .f32) (main_arg1 : FVec F S150000x64 .f32) (main_arg2 : FVec F S1x64 .f32) (main_arg3 : FVec F S64x64 .f32) (main_arg4 : FVec F S1250000x64 .f32) (main_arg5 : FVec F S150000x1 .f32) (main_arg6 : IVec S1250000 32) (main_arg7 : IVec S1250000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S150000x64 : Shape := ⟨2, ![150000, 64]⟩
abbrev S1x64 : Shape := ⟨2, ![1, 64]⟩
abbrev S64x64 : Shape := ⟨2, ![64, 64]⟩
abbrev S1250000x64 : Shape := ⟨2, ![1250000, 64]⟩
abbrev S150000x1 : Shape := ⟨2, ![150000, 1]⟩
abbrev S1250000 : Shape := ⟨1, ![1250000]⟩
abbrev S_ : Shape := ⟨0, ![]⟩
abbrev S1250000x1 : Shape := ⟨2, ![1250000, 1]⟩
abbrev S6000x64 : Shape := ⟨2, ![6000, 64]⟩
abbrev S6000x1 : Shape := ⟨2, ![6000, 1]⟩
abbrev S5000x64 : Shape := ⟨2, ![5000, 64]⟩
abbrev S5000x1 : Shape := ⟨2, ![5000, 1]⟩

abbrev nBuf : Space → Nat
  | .hbm => 34
  | .vmem => 23
  | .smem => 0
  | _ => 0

abbrev bufTy : (tb : Table) → Fin (tcTables nBuf tb) → BufTy
  | .hbm, ⟨0, _⟩ => ⟨S150000x64, .f32⟩
  | .hbm, ⟨1, _⟩ => ⟨S150000x64, .f32⟩
  | .hbm, ⟨2, _⟩ => ⟨S1x64, .f32⟩
  | .hbm, ⟨3, _⟩ => ⟨S64x64, .f32⟩
  | .hbm, ⟨4, _⟩ => ⟨S1250000x64, .f32⟩
  | .hbm, ⟨5, _⟩ => ⟨S150000x1, .f32⟩
  | .hbm, ⟨6, _⟩ => ⟨S1250000, .i32⟩
  | .hbm, ⟨7, _⟩ => ⟨S1250000, .i32⟩
  | .hbm, ⟨8, _⟩ => ⟨S150000x64, .f32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .i32⟩
  | .hbm, ⟨19, _⟩ => ⟨S1250000, .i32⟩
  | .hbm, ⟨20, _⟩ => ⟨S1250000, .i1⟩
  | .hbm, ⟨21, _⟩ => ⟨S_, .i32⟩
  | .hbm, ⟨22, _⟩ => ⟨S1250000, .i32⟩
  | .hbm, ⟨23, _⟩ => ⟨S1250000, .i32⟩
  | .hbm, ⟨24, _⟩ => ⟨S1250000, .i32⟩
  | .hbm, ⟨25, _⟩ => ⟨S1250000x1, .i32⟩
  | .hbm, ⟨26, _⟩ => ⟨S1250000x1, .f32⟩
  | .hbm, ⟨27, _⟩ => ⟨S64x64, .f32⟩
  | .hbm, ⟨28, _⟩ => ⟨S1250000x64, .f32⟩
  | .hbm, ⟨29, _⟩ => ⟨S_, .f32⟩
  | .hbm, ⟨30, _⟩ => ⟨S150000x64, .f32⟩
  | .hbm, ⟨31, _⟩ => ⟨S1250000x1, .i32⟩
  | .hbm, ⟨32, _⟩ => ⟨S150000x64, .f32⟩
  | .hbm, ⟨33, _⟩ => ⟨S150000x64, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S6000x1, .f32⟩
  | .local _ .vmem, ⟨5, _⟩ => ⟨S6000x1, .f32⟩
  | .local _ .vmem, ⟨6, _⟩ => ⟨S6000x64, .f32⟩
  | .local _ .vmem, ⟨7, _⟩ => ⟨S6000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S6000x64, .f32⟩
  | .local _ .vmem, ⟨18, _⟩ => ⟨S6000x64, .f32⟩
  | .local _ .vmem, ⟨19, _⟩ => ⟨S6000x1, .f32⟩
  | .local _ .vmem, ⟨20, _⟩ => ⟨S6000x1, .f32⟩
  | .local _ .vmem, ⟨21, _⟩ => ⟨S6000x64, .f32⟩
  | .local _ .vmem, ⟨22, _⟩ => ⟨S6000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_c_0 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_c_1 : Ref sig .tc := ⟨.hbm, 18, rfl⟩
abbrev main_call0_v8 : Ref sig .tc := ⟨.hbm, 19, rfl⟩
abbrev main_call0_v9 : Ref sig .tc := ⟨.hbm, 20, rfl⟩
abbrev main_call0_c_2 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_cst : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  transposes_S64x64_S64x64_1_0 : S64x64.Transposes [1, 0] S64x64
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  inb_S6000x1_S6000x1_0_0 : ∀ a, (![0, 0] : Fin 2 → Nat) a + S6000x1.size a ≤ S6000x1.size a
  h_S6000x1 : 0 < S6000x1.numel
  broadcasts_S6000x1_S6000x64 : S6000x1.Broadcasts S6000x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S6000x64_S6000x64 : S6000x64.ShapeCasts S6000x64
  gather_S150000x64_S1250000x1_S1250000x64_1_0_n_n_0_1_164_wf : GatherDims.WF S150000x64 S1250000x1 S1250000x64 [1] [0] [] [0] [] 1 ![1, 64]
  gather_S150000x1_S1250000x1_S1250000x1_1_0_n_n_0_1_11_wf : GatherDims.WF S150000x1 S1250000x1 S1250000x1 [1] [0] [] [0] [] 1 ![1, 1]
  scatter_S150000x64_S1250000x1_S1250000x64_1_0_0_1_wf : ScatterDims.WF S150000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x1.size a ≤ S150000x1.size a
  hwx0_2 : ∀ i : grid0.Coords, EltTy.bits .f32 = 32 ∨ (Rect.block (s := S150000x1) S6000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x64.size a ≤ S150000x64.size a
  hwx0_3 : ∀ i : grid0.Coords, EltTy.bits .f32 = 32 ∨ (Rect.block (s := S150000x64) S6000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1250000x64.size a
  hwx1_0 : ∀ i : grid1.Coords, EltTy.bits .f32 = 32 ∨ (Rect.block (s := S1250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1250000x64.size a
  hwx1_1 : ∀ i : grid1.Coords, EltTy.bits .f32 = 32 ∨ (Rect.block (s := S1250000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S1250000x1.size a
  hwx1_2 : ∀ i : grid1.Coords, EltTy.bits .f32 = 32 ∨ (Rect.block (s := S1250000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S1250000x64.size a
  hwx1_4 : ∀ i : grid1.Coords, EltTy.bits .f32 = 32 ∨ (Rect.block (s := S1250000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x1.size a ≤ S150000x1.size a
  hwx2_1 : ∀ i : grid2.Coords, EltTy.bits .f32 = 32 ∨ (Rect.block (s := S150000x1) S6000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x64.size a ≤ S150000x64.size a
  hwx2_2 : ∀ i : grid2.Coords, EltTy.bits .f32 = 32 ∨ (Rect.block (s := S150000x64) S6000x64.size (cc2_transform_2 i) (hinb2_2 i)).WholeWords (EltTy.packing .f32)

variable [Facts₀]

def gather_S150000x64_S1250000x1_S1250000x64_1_0_n_n_0_1_164 : GatherDims S150000x64 S1250000x1 S1250000x64 where
  offsetDims := [1]
  collapsedSliceDims := [0]
  operandBatchingDims := []
  startIndicesBatchingDims := []
  startIndexMap := [0]
  indexVectorDim := 1
  sliceSizes := ![1, 64]
  wf := gather_S150000x64_S1250000x1_S1250000x64_1_0_n_n_0_1_164_wf
def gather_S150000x1_S1250000x1_S1250000x1_1_0_n_n_0_1_11 : GatherDims S150000x1 S1250000x1 S1250000x1 where
  offsetDims := [1]
  collapsedSliceDims := [0]
  operandBatchingDims := []
  startIndicesBatchingDims := []
  startIndexMap := [0]
  indexVectorDim := 1
  sliceSizes := ![1, 1]
  wf := gather_S150000x1_S1250000x1_S1250000x1_1_0_n_n_0_1_11_wf
def scatter_S150000x64_S1250000x1_S1250000x64_1_0_0_1 : ScatterDims S150000x64 S1250000x1 S1250000x64 where
  updateWindowDims := [1]
  insertedWindowDims := [0]
  scatterDimsToOperandDims := [0]
  indexVectorDim := 1
  wf := scatter_S150000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S6000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S6000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v7) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v16) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v19) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S6000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S6000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S150000x64 : Shape := ⟨2, ![150000, 64]⟩
abbrev S1x64 : Shape := ⟨2, ![1, 64]⟩
abbrev S64x64 : Shape := ⟨2, ![64, 64]⟩
abbrev S1250000x64 : Shape := ⟨2, ![1250000, 64]⟩
abbrev S150000x1 : Shape := ⟨2, ![150000, 1]⟩
abbrev S1250000 : Shape := ⟨1, ![1250000]⟩
abbrev S_ : Shape := ⟨0, ![]⟩
abbrev S1250000x1 : Shape := ⟨2, ![1250000, 1]⟩

abbrev nBuf : Space → Nat
  | .hbm => 47
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S150000x64, .f32⟩
  | .hbm, ⟨2, _⟩ => ⟨S1x64, .f32⟩
  | .hbm, ⟨3, _⟩ => ⟨S64x64, .f32⟩
  | .hbm, ⟨4, _⟩ => ⟨S1250000x64, .f32⟩
  | .hbm, ⟨5, _⟩ => ⟨S150000x1, .f32⟩
  | .hbm, ⟨6, _⟩ => ⟨S1250000, .i32⟩
  | .hbm, ⟨7, _⟩ => ⟨S1250000, .i32⟩
  | .hbm, ⟨8, _⟩ => ⟨S64x64, .f32⟩
  | .hbm, ⟨9, _⟩ => ⟨S1250000x64, .f32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S_, .i32⟩
  | .hbm, ⟨20, _⟩ => ⟨S1250000, .i32⟩
  | .hbm, ⟨21, _⟩ => ⟨S1250000, .i1⟩
  | .hbm, ⟨22, _⟩ => ⟨S_, .i32⟩
  | .hbm, ⟨23, _⟩ => ⟨S1250000, .i32⟩
  | .hbm, ⟨24, _⟩ => ⟨S1250000, .i32⟩
  | .hbm, ⟨25, _⟩ => ⟨S1250000, .i32⟩
  | .hbm, ⟨26, _⟩ => ⟨S1250000x1, .i32⟩
  | .hbm, ⟨27, _⟩ => ⟨S1250000x64, .f32⟩
  | .hbm, ⟨28, _⟩ => ⟨S1250000x64, .f32⟩
  | .hbm, ⟨29, _⟩ => ⟨S1250000x64, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000x1, .f32⟩
  | .hbm, ⟨39, _⟩ => ⟨S1250000x64, .f32⟩
  | .hbm, ⟨40, _⟩ => ⟨S1250000x64, .f32⟩
  | .hbm, ⟨41, _⟩ => ⟨S_, .f32⟩
  | .hbm, ⟨42, _⟩ => ⟨S150000x64, .f32⟩
  | .hbm, ⟨43, _⟩ => ⟨S1250000x1, .i32⟩
  | .hbm, ⟨44, _⟩ => ⟨S150000x64, .f32⟩
  | .hbm, ⟨45, _⟩ => ⟨S150000x64, .f32⟩
  | .hbm, ⟨46, _⟩ => ⟨S150000x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  transposes_S64x64_S64x64_1_0 : S64x64.Transposes [1, 0] S64x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S150000x64 : S_.BroadcastsInDim S150000x64 (![] : Fin 0 → Fin S150000x64.rank)
  bcast_S150000x1_S150000x64_0_1 : S150000x1.BroadcastsInDim S150000x64 (![0, 1] : Fin 2 → Fin S150000x64.rank)
  dot_S1250000x64_S64x64_S1250000x64_1_0_0_1_n_n_wf : DotDims.WF S1250000x64 S64x64 S1250000x64 [1] [0] [0] [1] [] []
  gather_S150000x64_S1250000x1_S1250000x64_1_0_n_n_0_1_164_wf : GatherDims.WF S150000x64 S1250000x1 S1250000x64 [1] [0] [] [0] [] 1 ![1, 64]
  gather_S150000x1_S1250000x1_S1250000x1_1_0_n_n_0_1_11_wf : GatherDims.WF S150000x1 S1250000x1 S1250000x1 [1] [0] [] [0] [] 1 ![1, 1]
  scatter_S150000x64_S1250000x1_S1250000x64_1_0_0_1_wf : ScatterDims.WF S150000x64 S1250000x1 S1250000x64 [1] [0] [0] 1

variable [Facts₀]

def dot_S1250000x64_S64x64_S1250000x64_1_0_0_1_n_n : DotDims S1250000x64 S64x64 S1250000x64 where
  lhsContracting := [1]
  rhsContracting := [0]
  lhsNonContracting := [0]
  rhsNonContracting := [1]
  lhsBatch := []
  rhsBatch := []
  wf := dot_S1250000x64_S64x64_S1250000x64_1_0_0_1_n_n_wf
def gather_S150000x64_S1250000x1_S1250000x64_1_0_n_n_0_1_164 : GatherDims S150000x64 S1250000x1 S1250000x64 where
  offsetDims := [1]
  collapsedSliceDims := [0]
  operandBatchingDims := []
  startIndicesBatchingDims := []
  startIndexMap := [0]
  indexVectorDim := 1
  sliceSizes := ![1, 64]
  wf := gather_S150000x64_S1250000x1_S1250000x64_1_0_n_n_0_1_164_wf
def gather_S150000x1_S1250000x1_S1250000x1_1_0_n_n_0_1_11 : GatherDims S150000x1 S1250000x1 S1250000x1 where
  offsetDims := [1]
  collapsedSliceDims := [0]
  operandBatchingDims := []
  startIndicesBatchingDims := []
  startIndexMap := [0]
  indexVectorDim := 1
  sliceSizes := ![1, 1]
  wf := gather_S150000x1_S1250000x1_S1250000x1_1_0_n_n_0_1_11_wf
def scatter_S150000x64_S1250000x1_S1250000x64_1_0_0_1 : ScatterDims S150000x64 S1250000x1 S1250000x64 where
  updateWindowDims := [1]
  insertedWindowDims := [0]
  scatterDimsToOperandDims := [0]
  indexVectorDim := 1
  wf := scatter_S150000x64_S1250000x1_S1250000x64_1_0_0_1_wf

class Facts : Prop extends Facts₀ where

variable [Facts]
-- ==== Proof.KernelRun.lean ====
/-
  The idealized kernel's run with its RESULT named. The program is five segments — the node-table region, a stretch
  of host operations (the index normalisation, the two row gathers, the transpose), the per-edge message region, a
  second stretch (the zero table, the scatter-add) and the scaling region — and the generated frame run carries every
  unscoped buffer's contents from boundary to boundary. Here that same run is read at one more buffer: after it the
  result array holds what the last boundary's contents give it, and the eight argument arrays are as launched.
-/
import proofs.«105467_j84335977824412_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.NodeTable.lean ====
/-
  The first kernel region computes the node table `a = (x + weight) · ci`: 25 grid points, point `t` holding rows
  `6000 t … 6000 t + 5999` of the three inputs and of the output. At a point the body adds the two feature blocks
  entry by entry and multiplies row `r` of the sum by the single entry of row `r` of the `ci` block (a column
  broadcast along the 64 features). Since every window moves with the output window, what point `t` writes back
  is block `t` of ONE function of the three arrays as the region finds them, and the 25 blocks tile the table:
  the table ends as that function, whatever the arrays hold.
-/
import proofs.«105467_j84335977824412_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Regions

open Cert.KernelIdeal Cert.KernelIdeal.Gen Idealize.ShloMosaic Idealize.ShloMosaic.TcCoe Idealize.SL.Sem
open Idealize.ShloMosaic.Pipeline (Dat)

/-- The all-zero offset of a whole-block access, as a constant function. -/
theorem zeroOffset : (![0, 0] : Fin 2 → Nat) = fun _ => 0 := funext fun a => by fin_cases a <;> rfl

/-- The head of a row: `(r, ·) ↦ (r, 0)`, the one entry of row `r` of a one-column array. -/
abbrev rowHead {a b : Nat} (i : (⟨2, ![a, b]⟩ : Shape).Idx) : (⟨2, ![a, 1]⟩ : Shape).Idx := fun d => match d with
  | ⟨0, _⟩ => ⟨(i 0).val, (i 0).isLt⟩
  | ⟨1, _⟩ => ⟨0, Nat.one_pos⟩

/-- The node table: entry `(n, f)` is `(x[n, f] + w[n, f]) · ci[n, 0]`. -/
abbrev nodeTable (x w : S150000x64.Idx → EReal) (ci : S150000x1.Idx → EReal) : S150000x64.Idx → EReal :=
  fun i => (x i + w i) * ci (rowHead i)

/-- The body's stored value at an entry of the block: the sum of the two feature entries times the head of the
    entry's row in the one-column block. -/
theorem prep_payload_apply (x0 x1 : Vec Ideal S6000x64 .f32) (x2 : Vec Ideal S6000x1 .f32) (j : S6000x64.Idx) :
    k0_pay1 x0 x1 x2 j = (x0 j + x1 j) * x2 (rowHead j) := by
  unfold k0_pay1
  show (x0 j + x1 j) * broadcastTo S6000x64 x2 broadcasts_S6000x1_S6000x64 j = _
  rw [broadcastTo_apply x2 broadcasts_S6000x1_S6000x64 j (rowHead j) (fun a => match a with
    | ⟨0, _⟩ => by show (j 0).val = if (6000 : Nat) = 1 then 0 else (j 0).val; rw [if_neg (by decide)]
    | ⟨1, _⟩ => by show 0 = if (1 : Nat) = 1 then 0 else (j 1).val; rw [if_pos rfl])]

/-- The table at an index, from its three arrays read at indices that are that index and the head of its row. -/
theorem nodeTable_at (x w : S150000x64.Idx → EReal) (ci : S150000x1.Idx → EReal) (i0 i1 i3 : S150000x64.Idx)
    (i2 : S150000x1.Idx) (h0 : i0 = i3) (h1 : i1 = i3) (h2 : i2 = rowHead i3) :
    (x i0 + w i1) * ci i2 = nodeTable x w ci i3 := by
  subst h0 h1 h2; rfl

variable (V : (c : Dev nD) → (b : Ref sig .tc) → Buf (Elt Ideal) ((c : Thread nD τ).loc b))

/-- The four windows' block indices at a point, decided over the 25 points: every window sits at block row `t`,
    block column 0. -/
theorem prep_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the node table of the arrays as the region finds them. -/
theorem prep_flushed (c : Dev nD) (t : Fin cfg0.N) :
    (dat0 V c).flushed 3 t = ((cfg0.win 3).blk t).view.read (Elt Ideal)
      (nodeTable (V c main_arg0) (V c main_arg1) (V c main_arg5)) := by
  show (cfg0.win 3).cut (grid0.coords t) ((dat0 V c).after 3 t) = _
  rw [after0_3]
  unfold out0_3
  rw [View.canon_unit_zero zeroOffset]
  simp only [View.ld_unit_zero (S := S6000x64) zeroOffset, View.ld_unit_zero (S := S6000x1) zeroOffset]
  obtain ⟨e00, e01, e10, e11, e20, e21, e30, e31⟩ := prep_idx t
  funext j
  refine (prep_payload_apply (iblk0 V c 0 t) (iblk0 V c 1 t) (iblk0 V c 2 t) j).trans ?_
  have h0 : ((cfg0.win 0).blk t).view.emb j = ((cfg0.win 3).blk t).view.emb j := by
    funext a; apply Fin.ext
    match a with
    | ⟨0, _⟩ => show win0_0.index t (0 : Fin 2) * 6000 + 1 * (j 0).val = win0_3.index t (0 : Fin 2) * 6000 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb j = ((cfg0.win 3).blk t).view.emb j := by
    funext a; apply Fin.ext
    match a with
    | ⟨0, _⟩ => show win0_1.index t (0 : Fin 2) * 6000 + 1 * (j 0).val = win0_3.index t (0 : Fin 2) * 6000 + 1 * (j 0).val; omega
    | ⟨1, _⟩ => show win0_1.index t (1 : Fin 2) * 64 + 1 * (j 1).val = win0_3.index t (1 : Fin 2) * 64 + 1 * (j 1).val; omega
  have h2 : ((cfg0.win 2).blk t).view.emb (rowHead j) = rowHead (((cfg0.win 3).blk t).view.emb j) := by
    funext a; apply Fin.ext
    match a with
    | ⟨0, _⟩ => show win0_2.index t (0 : Fin 2) * 6000 + 1 * (j 0).val = win0_3.index t (0 : Fin 2) * 6000 + 1 * (j 0).val; omega
    | ⟨1, _⟩ => show win0_2.index t (1 : Fin 2) * 1 + 1 * 0 = 0; omega
  exact nodeTable_at (V c main_arg0) (V c main_arg1) (V c main_arg5) (((cfg0.win 0).blk t).view.emb j)
    (((cfg0.win 1).blk t).view.emb j) (((cfg0.win 3).blk t).view.emb j) (((cfg0.win 2).blk t).view.emb (rowHead j)) h0 h1 h2

/-- An index of the table is in point `t`'s block iff each coordinate is in the block's range on its axis. -/
theorem prep_mem (t : Fin cfg0.N) (i : S150000x64.Idx) :
    i ∈ ((cfg0.win 3).blk t).view.set ↔ ∀ a : Fin 2, win0_3.index t a * S6000x64.size a ≤ (i a).val
      ∧ (i a).val < win0_3.index t a * S6000x64.size a + S6000x64.size a := by
  show i ∈ ((View.whole main_call0_v0).slice (win0_3.rect t)).set ↔ _
  rw [View.set_slice_whole, Rect.mem_set_unit]
  exact Iff.rfl

/-- Row `n` of the table lies in the block of point `n / 6000`: the 25 blocks tile the table. -/
theorem prep_cover (i : S150000x64.Idx) :
    ∃ t : Fin cfg0.N, (cfg0.win 3).flush t = true ∧ i ∈ ((cfg0.win 3).blk t).view.set := by
  have hi0 : (i 0).val < 150000 := (i 0).isLt
  have hi1 : (i 1).val < 64 := (i 1).isLt
  have hN : cfg0.N = 25 := N_0
  let t : Fin cfg0.N := ⟨(i 0).val / 6000, by rw [hN]; omega⟩
  obtain ⟨-, -, -, -, -, -, e30, e31⟩ := prep_idx t
  have ht : t.val = (i 0).val / 6000 := rfl
  refine ⟨t, flush0_3 t, ?_⟩
  rw [prep_mem]
  intro a
  match a with
  | ⟨0, _⟩ => show win0_3.index t (0 : Fin 2) * 6000 ≤ (i 0).val ∧ (i 0).val < win0_3.index t (0 : Fin 2) * 6000 + 6000; omega
  | ⟨1, _⟩ => show win0_3.index t (1 : Fin 2) * 64 ≤ (i 1).val ∧ (i 1).val < win0_3.index t (1 : Fin 2) * 64 + 64; omega

/-- THE TABLE after the region: the node table of the three arrays as the region finds them. -/
theorem prep_final (c : Dev nD) :
    (dat0 V c).arrAt 3 cfg0.N = nodeTable (V c main_arg0) (V c main_arg1) (V c main_arg5) :=
  (dat0 V c).arrAt_eq_of_cover 3 _ (fun t _ => prep_flushed V c t) prep_cover

end Cert.KernelIdeal.Regions

end
-- ==== Proof.EdgeMessage.lean ====
/-
  The middle kernel region computes the per-edge message: 250 grid points, point `t` holding edges
  `5000 t … 5000 t + 4999` of the edge features, of the gathered table rows, of the gathered `ci` entries and of the
  result, and the whole 64 × 64 transposed weight at every point. At a point the body multiplies the feature block by
  the weight on the matrix unit into a zero accumulator — at the extended reals, where a change of float format is
  the identity, entry `(e, f)` of the product is the sum over `k` of `rf[e, k] · wT[k, f]` —, multiplies row `e` of
  the product by the single entry of row `e` of the gathered `ci` block and adds the gathered table block. The edge
  windows move together, the weight window stays, and the 250 blocks tile the result: it ends as one function of the
  four arrays as the region finds them.
-/
import proofs.«105467_j84335977824412_2_alg».proof.Proof.NodeTable

noncomputable section

namespace Cert.KernelIdeal.Regions

open Cert.KernelIdeal Cert.KernelIdeal.Gen Idealize.ShloMosaic Idealize.ShloMosaic.TcCoe Idealize.SL.Sem
open Idealize.ShloMosaic.Pipeline (Dat)

/-- Entry `k` of an edge's feature row: `(e, ·) ↦ (e, k)`. -/
abbrev featAt {a : Nat} (j : (⟨2, ![a, 64]⟩ : Shape).Idx) (k : Fin 64) : (⟨2, ![a, 64]⟩ : Shape).Idx := fun d => match d with
  | ⟨0, _⟩ => ⟨(j 0).val, (j 0).isLt⟩
  | ⟨1, _⟩ => ⟨k.val, k.isLt⟩

/-- Entry `k` of the weight column an output feature reads: `(·, f) ↦ (k, f)`. -/
abbrev weightAt {a : Nat} (j : (⟨2, ![a, 64]⟩ : Shape).Idx) (k : Fin 64) : S64x64.Idx := fun d => match d with
  | ⟨0, _⟩ => ⟨k.val, k.isLt⟩
  | ⟨1, _⟩ => ⟨(j 1).val, (j 1).isLt⟩

/-- The per-edge message: entry `(e, f)` is `asrc[e, f] + (∑ k, rf[e, k] · wT[k, f]) · cisrc[e, 0]`. -/
abbrev edgeMessage (rf asrc : S1250000x64.Idx → EReal) (cisrc : S1250000x1.Idx → EReal) (wT : S64x64.Idx → EReal) :
    S1250000x64.Idx → EReal :=
  fun j => asrc j + (∑ k : Fin 64, rf (featAt j k) * wT (weightAt j k)) * cisrc (rowHead j)

/-! ## The block product read at an entry -/

theorem blockDot_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blockDot_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem blockDot_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem blockDot_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix unit's product of a 5000 × 64 block by the 64 × 64 weight into a zero accumulator, at entry `(e, f)`:
    the sum over `k` of the block's `(e, k)` times the weight's `(k, f)`. -/
theorem blockDot_apply (l : FVec Ideal S5000x64 .bf16) (r : FVec Ideal S64x64 .bf16) (j : S5000x64.Idx) :
    FloatOps.matmul dot_S5000x64_S64x64_S5000x64_1_0_0_1_n_n none l r (constant S5000x64 .f32 0x00000000#32) j
      = ∑ k : Fin 64, l (featAt j k) * r (weightAt j k) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = featAt j k := funext fun a => Fin.ext (by
    match a with
    | ⟨0, _⟩ => exact blockDot_lhs0 _ _
    | ⟨1, _⟩ => exact (blockDot_lhs1 _ _).trans hk)
  have er : dot_S5000x64_S64x64_S5000x64_1_0_0_1_n_n.rhsIdx j ((ValueIdx.contrEquiv1 dot_S5000x64_S64x64_S5000x64_1_0_0_1_n_n 64 rfl rfl).symm k) = weightAt j k := funext fun a => Fin.ext (by
    match a with
    | ⟨0, _⟩ => exact (blockDot_rhs0 _ _).trans hk
    | ⟨1, _⟩ => exact blockDot_rhs1 _ _)
  rw [el, er]

/-- The body's stored value at an entry of the block. -/
theorem msg_payload_apply (x0 : Vec Ideal S5000x64 .f32) (x3 : Vec Ideal S64x64 .f32) (x1 : Vec Ideal S5000x64 .f32)
    (x2 : Vec Ideal S5000x1 .f32) (j : S5000x64.Idx) :
    k1_pay1 x0 x3 x1 x2 j = x1 j + (∑ k : Fin 64, x0 (featAt j k) * x3 (weightAt j k)) * x2 (rowHead j) := by
  unfold k1_pay1
  show shapeCast S5000x64 x1 shapeCasts_S5000x64_S5000x64 j
      + FloatOps.matmul (F := Ideal) dot_S5000x64_S64x64_S5000x64_1_0_0_1_n_n none (truncf (F := Ideal) .bf16 x0 bitsLt_bf16_f32)
          (truncf (F := Ideal) .bf16 (shapeCast S64x64 x3 shapeCasts_S64x64_S64x64) bitsLt_bf16_f32)
          (constant (F := Ideal) S5000x64 .f32 0x00000000#32) j
        * broadcastTo S5000x64 (shapeCast S5000x1 x2 shapeCasts_S5000x1_S5000x1) broadcasts_S5000x1_S5000x64 j = _
  rw [blockDot_apply]
  simp only [shapeCast_self]
  rw [broadcastTo_apply x2 broadcasts_S5000x1_S5000x64 j (rowHead j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]
  rfl

/-- The message at an index, from its four arrays read at indices that are that index, its feature row, its weight
    column and the head of its row. -/
theorem edgeMessage_at (rf asrc : S1250000x64.Idx → EReal) (cisrc : S1250000x1.Idx → EReal) (wT : S64x64.Idx → EReal)
    (i4 i1 : S1250000x64.Idx) (i2 : S1250000x1.Idx) (f0 : Fin 64 → S1250000x64.Idx) (f3 : Fin 64 → S64x64.Idx)
    (h1 : i1 = i4) (h2 : i2 = rowHead i4) (h0 : ∀ k, f0 k = featAt i4 k) (h3 : ∀ k, f3 k = weightAt i4 k) :
    asrc i1 + (∑ k : Fin 64, rf (f0 k) * wT (f3 k)) * cisrc i2 = edgeMessage rf asrc cisrc wT i4 := by
  rw [h1, h2, show f0 = fun k => featAt i4 k from funext h0, show f3 = fun k => weightAt i4 k from funext h3]

variable (V : (c : Dev nD) → (b : Ref sig .tc) → Buf (Elt Ideal) ((c : Thread nD τ).loc b))

/-- The five windows' block indices at a point, decided over the 250 points: the edge windows at block row `t`, the
    weight window at the origin. -/
theorem msg_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the message of the arrays as the region finds them. -/
theorem msg_flushed (c : Dev nD) (t : Fin cfg1.N) :
    (dat1 V c).flushed 4 t = ((cfg1.win 4).blk t).view.read (Elt Ideal)
      (edgeMessage (V c main_arg4) (V c main_call0_v7) (V c main_call0_v14) (V c main_call0_v15)) := by
  show (cfg1.win 4).cut (grid1.coords t) ((dat1 V c).after 4 t) = _
  rw [after1_4]
  unfold out1_4
  rw [View.canon_unit_zero zeroOffset]
  simp only [View.ld_unit_zero (S := S5000x64) zeroOffset, View.ld_unit_zero (S := S5000x1) zeroOffset,
    View.ld_unit_zero (S := S64x64) zeroOffset]
  obtain ⟨e00, e01, e10, e11, e20, e21, e30, e31, e40, e41⟩ := msg_idx t
  funext j
  refine (msg_payload_apply (iblk1 V c 0 t) (iblk1 V c 3 t) (iblk1 V c 1 t) (iblk1 V c 2 t) j).trans ?_
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb (rowHead j) = rowHead (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h0 : ∀ k : Fin 64, ((cfg1.win 0).blk t).view.emb (featAt j k) = featAt (((cfg1.win 4).blk t).view.emb j) k := by
    intro k; funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * k.val = k.val; omega
  have h3 : ∀ k : Fin 64, ((cfg1.win 3).blk t).view.emb (weightAt j k) = weightAt (((cfg1.win 4).blk t).view.emb j) k := by
    intro k; funext a; apply Fin.ext
    match a with
    | ⟨0, _⟩ => show win1_3.index t (0 : Fin 2) * 64 + 1 * k.val = k.val; omega
    | ⟨1, _⟩ => show win1_3.index t (1 : Fin 2) * 64 + 1 * (j 1).val = win1_4.index t (1 : Fin 2) * 64 + 1 * (j 1).val; omega
  exact edgeMessage_at (V c main_arg4) (V c main_call0_v7) (V c main_call0_v14) (V c main_call0_v15)
    (((cfg1.win 4).blk t).view.emb j) (((cfg1.win 1).blk t).view.emb j) (((cfg1.win 2).blk t).view.emb (rowHead j))
    (fun k => ((cfg1.win 0).blk t).view.emb (featAt j k)) (fun k => ((cfg1.win 3).blk t).view.emb (weightAt j k)) h1 h2 h0 h3

/-- An index of the result is in point `t`'s block iff each coordinate is in the block's range on its axis. -/
theorem msg_mem (t : Fin cfg1.N) (i : S1250000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_call0_v16).slice (win1_4.rect t)).set ↔ _
  rw [View.set_slice_whole, Rect.mem_set_unit]
  exact Iff.rfl

/-- Edge `e` lies in the block of point `e / 5000`: the 250 blocks tile the result. -/
theorem msg_cover (i : S1250000x64.Idx) :
    ∃ t : Fin cfg1.N, (cfg1.win 4).flush t = true ∧ i ∈ ((cfg1.win 4).blk t).view.set := by
  have hi0 : (i 0).val < 1250000 := (i 0).isLt
  have hi1 : (i 1).val < 64 := (i 1).isLt
  have hN : cfg1.N = 250 := N_1
  let t : Fin cfg1.N := ⟨(i 0).val / 5000, by rw [hN]; omega⟩
  obtain ⟨-, -, -, -, -, -, -, -, e40, e41⟩ := msg_idx t
  have ht : t.val = (i 0).val / 5000 := rfl
  refine ⟨t, flush1_4 t, ?_⟩
  rw [msg_mem]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE MESSAGE ARRAY after the region: the per-edge message of the four arrays as the region finds them. -/
theorem msg_final (c : Dev nD) :
    (dat1 V c).arrAt 4 cfg1.N
      = edgeMessage (V c main_arg4) (V c main_call0_v7) (V c main_call0_v14) (V c main_call0_v15) :=
  (dat1 V c).arrAt_eq_of_cover 4 _ (fun t _ => msg_flushed V c t) msg_cover

end Cert.KernelIdeal.Regions

end
-- ==== Proof.NodeScale.lean ====
/-
  The last kernel region scales the aggregated table by `ci`: 25 grid points, point `t` holding rows
  `6000 t … 6000 t + 5999` of the table, of `ci` and of the result. At a point the body multiplies row `r` of the
  table block by the single entry of row `r` of the `ci` block. The three windows move together and the 25 blocks
  tile the result, so the result ends as one function of the two arrays as the region finds them:
  entry `(n, f)` is `h[n, f] · ci[n, 0]`.
-/
import proofs.«105467_j84335977824412_2_alg».proof.Proof.NodeTable

noncomputable section

namespace Cert.KernelIdeal.Regions

open Cert.KernelIdeal Cert.KernelIdeal.Gen Idealize.ShloMosaic Idealize.ShloMosaic.TcCoe Idealize.SL.Sem
open Idealize.ShloMosaic.Pipeline (Dat)

/-- A table with each row scaled by the head of the same row of a one-column array. -/
abbrev scaledRows (h : S150000x64.Idx → EReal) (ci : S150000x1.Idx → EReal) : S150000x64.Idx → EReal :=
  fun i => h i * ci (rowHead i)

/-- The body's stored value at an entry of the block. -/
theorem scale_payload_apply (x0 : Vec Ideal S6000x64 .f32) (x1 : Vec Ideal S6000x1 .f32) (j : S6000x64.Idx) :
    k2_pay1 x0 x1 j = x0 j * x1 (rowHead j) := by
  unfold k2_pay1
  show shapeCast S6000x64 x0 shapeCasts_S6000x64_S6000x64 j * broadcastTo S6000x64 x1 broadcasts_S6000x1_S6000x64 j = _
  rw [shapeCast_self, broadcastTo_apply x1 broadcasts_S6000x1_S6000x64 j (rowHead j) (fun a => match a with
    | ⟨0, _⟩ => by show (j 0).val = if (6000 : Nat) = 1 then 0 else (j 0).val; rw [if_neg (by decide)]
    | ⟨1, _⟩ => by show 0 = if (1 : Nat) = 1 then 0 else (j 1).val; rw [if_pos rfl])]

/-- The scaled table at an index, from its two arrays read at that index and at the head of its row. -/
theorem scaledRows_at (h : S150000x64.Idx → EReal) (ci : S150000x1.Idx → EReal) (i0 i2 : S150000x64.Idx)
    (i1 : S150000x1.Idx) (h0 : i0 = i2) (h1 : i1 = rowHead i2) :
    h i0 * ci i1 = scaledRows h ci i2 := by
  subst h0 h1; rfl

variable (V : (c : Dev nD) → (b : Ref sig .tc) → Buf (Elt Ideal) ((c : Thread nD τ).loc b))

/-- The three windows' block indices at a point, decided over the 25 points. -/
theorem scale_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled table of the arrays as the region finds them. -/
theorem scale_flushed (c : Dev nD) (t : Fin cfg2.N) :
    (dat2 V c).flushed 2 t = ((cfg2.win 2).blk t).view.read (Elt Ideal)
      (scaledRows (V c main_call0_v19) (V c main_arg5)) := by
  show (cfg2.win 2).cut (grid2.coords t) ((dat2 V c).after 2 t) = _
  rw [after2_2]
  unfold out2_2
  rw [View.canon_unit_zero zeroOffset]
  simp only [View.ld_unit_zero (S := S6000x64) zeroOffset, View.ld_unit_zero (S := S6000x1) zeroOffset]
  obtain ⟨e00, e01, e10, e11, e20, e21⟩ := scale_idx t
  funext j
  refine (scale_payload_apply (iblk2 V c 0 t) (iblk2 V c 1 t) j).trans ?_
  have h0 : ((cfg2.win 0).blk t).view.emb j = ((cfg2.win 2).blk t).view.emb j := by
    funext a; apply Fin.ext
    match a with
    | ⟨0, _⟩ => show win2_0.index t (0 : Fin 2) * 6000 + 1 * (j 0).val = win2_2.index t (0 : Fin 2) * 6000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (rowHead j) = rowHead (((cfg2.win 2).blk t).view.emb j) := by
    funext a; apply Fin.ext
    match a with
    | ⟨0, _⟩ => show win2_1.index t (0 : Fin 2) * 6000 + 1 * (j 0).val = win2_2.index t (0 : Fin 2) * 6000 + 1 * (j 0).val; omega
    | ⟨1, _⟩ => show win2_1.index t (1 : Fin 2) * 1 + 1 * 0 = 0; omega
  exact scaledRows_at (V c main_call0_v19) (V c main_arg5) (((cfg2.win 0).blk t).view.emb j)
    (((cfg2.win 2).blk t).view.emb j) (((cfg2.win 1).blk t).view.emb (rowHead j)) h0 h1

/-- An index of the result is in point `t`'s block iff each coordinate is in the block's range on its axis. -/
theorem scale_mem (t : Fin cfg2.N) (i : S150000x64.Idx) :
    i ∈ ((cfg2.win 2).blk t).view.set ↔ ∀ a : Fin 2, win2_2.index t a * S6000x64.size a ≤ (i a).val
      ∧ (i a).val < win2_2.index t a * S6000x64.size a + S6000x64.size a := by
  show i ∈ ((View.whole main_v0).slice (win2_2.rect t)).set ↔ _
  rw [View.set_slice_whole, Rect.mem_set_unit]
  exact Iff.rfl

/-- Row `n` of the result lies in the block of point `n / 6000`: the 25 blocks tile it. -/
theorem scale_cover (i : S150000x64.Idx) :
    ∃ t : Fin cfg2.N, (cfg2.win 2).flush t = true ∧ i ∈ ((cfg2.win 2).blk t).view.set := by
  have hi0 : (i 0).val < 150000 := (i 0).isLt
  have hi1 : (i 1).val < 64 := (i 1).isLt
  have hN : cfg2.N = 25 := N_2
  let t : Fin cfg2.N := ⟨(i 0).val / 6000, by rw [hN]; omega⟩
  obtain ⟨-, -, -, -, e20, e21⟩ := scale_idx t
  have ht : t.val = (i 0).val / 6000 := rfl
  refine ⟨t, flush2_2 t, ?_⟩
  rw [scale_mem]
  intro a
  match a with
  | ⟨0, _⟩ => show win2_2.index t (0 : Fin 2) * 6000 ≤ (i 0).val ∧ (i 0).val < win2_2.index t (0 : Fin 2) * 6000 + 6000; omega
  | ⟨1, _⟩ => show win2_2.index t (1 : Fin 2) * 64 ≤ (i 1).val ∧ (i 1).val < win2_2.index t (1 : Fin 2) * 64 + 64; omega

/-- THE RESULT after the region: the aggregated table as the region finds it, each row scaled by `ci`. -/
theorem scale_final (c : Dev nD) :
    (dat2 V c).arrAt 2 cfg2.N = scaledRows (V c main_call0_v19) (V c main_arg5) :=
  (dat2 V c).arrAt_eq_of_cover 2 _ (fun t _ => scale_flushed V c t) scale_cover

end Cert.KernelIdeal.Regions

end
-- ==== Proof.KernelValue.lean ====
/-
  The idealized kernel's result as ONE term of its arguments. The run carries the buffers' contents through five
  boundaries; read backwards from the result: the scaling region leaves the aggregated table with each row scaled by
  `ci`; the aggregated table is the scatter-add of the message array onto zeros at the destination indices; the
  message array is what the message region leaves of the edge features, the gathered node table, the gathered `ci` and
  the transposed weight; the two gathers read rows of the node table and of `ci` at the wrapped source indices; and the
  node table is what the first region leaves of `x`, `weight` and `ci`. No host operation and no region writes an
  argument, so every argument read along the way is the launch memory's.
-/
import proofs.«105467_j84335977824412_2_alg».proof.Proof.KernelRun
import proofs.«105467_j84335977824412_2_alg».proof.Proof.NodeTable
import proofs.«105467_j84335977824412_2_alg».proof.Proof.EdgeMessage
import proofs.«105467_j84335977824412_2_alg».proof.Proof.NodeScale
import Idealize.ShloMosaic.Lib.StableHlo.Run

set_option maxRecDepth 16384

noncomputable section

namespace Cert.KernelIdeal.RunValue

open Cert.KernelIdeal Cert.KernelIdeal.Gen Cert.KernelIdeal.Regions
open Idealize.ShloMosaic Idealize.ShloMosaic.TcCoe Idealize.SL.Sem Idealize.ShloMosaic.StableHlo
open Idealize.ShloMosaic.Pipeline (Dat)

/-- The start indices both programs gather at: a negative source index wrapped by the table's height (150000 added),
    the others as they are, as a column. -/
def wrapIdx (src : IVec S1250000 32) : IVec S1250000x1 32 :=
  broadcastInDim S1250000x1 ![0] bcast_S1250000_S1250000x1_0
    (select (cmpi .slt src (broadcastInDim S1250000 ![] bcast_S_S1250000 (constantI S_ 32 0#32)))
      (addi src (broadcastInDim S1250000 ![] bcast_S_S1250000 (constantI S_ 32 150000#32))) src)

/-- The kernel's result as a function of its arguments `x`, `weight`, `w_review`, `review_feat`, `ci`, `src`, `dst`. -/
def kernelValue (x w : S150000x64.Idx → EReal) (wr : S64x64.Idx → EReal) (rf : S1250000x64.Idx → EReal)
    (ci : S150000x1.Idx → EReal) (src dst : IVec S1250000 32) : S150000x64.Idx → EReal :=
  scaledRows
    (Host.scatterAdd scatter_S150000x64_S1250000x1_S1250000x64_1_0_0_1
      (broadcastInDim S150000x64 ![] bcast_S_S150000x64 (constant (F := Ideal) S_ .f32 0x00000000#32))
      (broadcastInDim S1250000x1 ![0] bcast_S1250000_S1250000x1_0 dst)
      (edgeMessage rf
        (Host.gather gather_S150000x64_S1250000x1_S1250000x64_1_0_n_n_0_1_164 (nodeTable x w ci) (wrapIdx src))
        (Host.gather gather_S150000x1_S1250000x1_S1250000x1_1_0_n_n_0_1_11 ci (wrapIdx src))
        (transpose S64x64 [1, 0] wr transposes_S64x64_S64x64_1_0)))
    ci

variable (m : (ℓ : Loc nD τ sig) → Buf (Elt Ideal) ℓ) (ρ : Dev nD → PrngReg)

/-! ## After the first region -/

theorem W1_x (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_ci (c : Dev nD) : W1 m ρ c (Proc.devRef .tc main_arg5) = m ((c : Thread nD τ).loc main_arg5) :=
  (W1_arr m ρ c 2).trans (((dat0 (V0 m ρ) c).arrAt_in 2 rfl _).trans (A_eq0 (V0 m ρ) c 2))
theorem W1_wr (c : Dev nD) : W1 m ρ c (Proc.devRef .tc main_arg3) = m ((c : Thread nD τ).loc main_arg3) :=
  W1_of_ne m ρ c main_arg3 (by decide)
theorem W1_rf (c : Dev nD) : W1 m ρ c (Proc.devRef .tc main_arg4) = m ((c : Thread nD τ).loc main_arg4) :=
  W1_of_ne m ρ c main_arg4 (by decide)
theorem W1_src (c : Dev nD) : W1 m ρ c (Proc.devRef .tc main_arg6) = m ((c : Thread nD τ).loc main_arg6) :=
  W1_of_ne m ρ c main_arg6 (by decide)
theorem W1_dst (c : Dev nD) : W1 m ρ c (Proc.devRef .tc main_arg7) = m ((c : Thread nD τ).loc main_arg7) :=
  W1_of_ne m ρ c main_arg7 (by decide)

/-- The node table after the first region. -/
theorem W1_table (c : Dev nD) : W1 m ρ c (Proc.devRef .tc main_call0_v0)
    = nodeTable (m ((c : Thread nD τ).loc main_arg0)) (m ((c : Thread nD τ).loc main_arg1)) (m ((c : Thread nD τ).loc main_arg5)) :=
  (W1_arr m ρ c 3).trans (prep_final (V0 m ρ) c)

/-! ## After the first stretch of host operations -/

theorem W2_asrc (c : Dev nD) : W2 m ρ c (Proc.devRef .tc main_call0_v7)
    = Host.gather gather_S150000x64_S1250000x1_S1250000x64_1_0_n_n_0_1_164 (W1 m ρ c (Proc.devRef .tc main_call0_v0)) (wrapIdx (W1 m ρ c (Proc.devRef .tc main_arg6))) := by
  show StableHlo.after hostOps1 (W1 m ρ c) (Proc.devRef .tc main_call0_v7) = _
  after_results
  rfl
theorem W2_cisrc (c : Dev nD) : W2 m ρ c (Proc.devRef .tc main_call0_v14)
    = Host.gather gather_S150000x1_S1250000x1_S1250000x1_1_0_n_n_0_1_11 (W1 m ρ c (Proc.devRef .tc main_arg5)) (wrapIdx (W1 m ρ c (Proc.devRef .tc main_arg6))) := by
  show StableHlo.after hostOps1 (W1 m ρ c) (Proc.devRef .tc main_call0_v14) = _
  after_results
  rfl
theorem W2_wT (c : Dev nD) : W2 m ρ c (Proc.devRef .tc main_call0_v15)
    = transpose S64x64 [1, 0] (W1 m ρ c (Proc.devRef .tc main_arg3)) transposes_S64x64_S64x64_1_0 := by
  show StableHlo.after hostOps1 (W1 m ρ c) (Proc.devRef .tc main_call0_v15) = _
  after_results
  rfl
theorem W2_rf (c : Dev nD) : W2 m ρ c (Proc.devRef .tc main_arg4) = W1 m ρ c (Proc.devRef .tc main_arg4) := by
  show StableHlo.after hostOps1 (W1 m ρ c) (Proc.devRef .tc main_arg4) = _
  after_results
theorem W2_ci (c : Dev nD) : W2 m ρ c (Proc.devRef .tc main_arg5) = W1 m ρ c (Proc.devRef .tc main_arg5) := by
  show StableHlo.after hostOps1 (W1 m ρ c) (Proc.devRef .tc main_arg5) = _
  after_results
theorem W2_dst (c : Dev nD) : W2 m ρ c (Proc.devRef .tc main_arg7) = W1 m ρ c (Proc.devRef .tc main_arg7) := by
  show StableHlo.after hostOps1 (W1 m ρ c) (Proc.devRef .tc main_arg7) = _
  after_results

/-! ## After the message region -/

/-- The message array after the middle region. -/
theorem W3_msg (c : Dev nD) : W3 m ρ c (Proc.devRef .tc main_call0_v16)
    = edgeMessage (W2 m ρ c (Proc.devRef .tc main_arg4)) (W2 m ρ c (Proc.devRef .tc main_call0_v7))
        (W2 m ρ c (Proc.devRef .tc main_call0_v14)) (W2 m ρ c (Proc.devRef .tc main_call0_v15)) :=
  (W3_arr m ρ c 4).trans (msg_final (V2 m ρ) c)
theorem W3_ci (c : Dev nD) : W3 m ρ c (Proc.devRef .tc main_arg5) = W2 m ρ c (Proc.devRef .tc main_arg5) :=
  W3_of_ne m ρ c main_arg5 (by decide)
theorem W3_dst (c : Dev nD) : W3 m ρ c (Proc.devRef .tc main_arg7) = W2 m ρ c (Proc.devRef .tc main_arg7) :=
  W3_of_ne m ρ c main_arg7 (by decide)

/-! ## After the second stretch of host operations -/

/-- The aggregated table: the message array scatter-added onto zeros at the destination indices. -/
theorem W4_h (c : Dev nD) : W4 m ρ c (Proc.devRef .tc main_call0_v19)
    = Host.scatterAdd scatter_S150000x64_S1250000x1_S1250000x64_1_0_0_1
        (broadcastInDim S150000x64 ![] bcast_S_S150000x64 (constant (F := Ideal) S_ .f32 0x00000000#32))
        (broadcastInDim S1250000x1 ![0] bcast_S1250000_S1250000x1_0 (W3 m ρ c (Proc.devRef .tc main_arg7)))
        (W3 m ρ c (Proc.devRef .tc main_call0_v16)) := by
  show StableHlo.after hostOps2 (W3 m ρ c) (Proc.devRef .tc main_call0_v19) = _
  after_results
  rfl
theorem W4_ci (c : Dev nD) : W4 m ρ c (Proc.devRef .tc main_arg5) = W3 m ρ c (Proc.devRef .tc main_arg5) := by
  show StableHlo.after hostOps2 (W3 m ρ c) (Proc.devRef .tc main_arg5) = _
  after_results

/-! ## After the scaling region -/

theorem W5_result (c : Dev nD) : W5 m ρ c (Proc.devRef .tc main_v0)
    = scaledRows (W4 m ρ c (Proc.devRef .tc main_call0_v19)) (W4 m ρ c (Proc.devRef .tc main_arg5)) :=
  (W5_arr m ρ c 2).trans (scale_final (V4 m ρ) c)

/-- THE RESULT: the last boundary's contents at the result array are `kernelValue` of the launch memory. -/
theorem result_eq (c : Dev nD) : W5 m ρ c (Proc.devRef .tc main_v0)
    = kernelValue (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W5_result, W4_h, W4_ci, W3_ci, W2_ci, W1_ci, W3_dst, W2_dst, W1_dst, W3_msg, W2_rf, W1_rf, W2_asrc, W2_cisrc, W2_wT,
    W1_table, W1_src, W1_ci, W1_wr]
  rfl

/-- THE RUN, READ: every weakly fair execution terminates, nothing faulting, with the result array at `kernelValue`
    of the launched arguments and the arguments unchanged. -/
theorem run : θ_run defs (onTc (τ := τ) (main (F := Ideal))) ⟨m, fun _ => 0, ρ⟩ (fun r => ∀ c : Dev nD,
      r.2.mem ((c.tc : Thread nD τ).loc main_v0)
        = kernelValue (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_result m ρ)

end Cert.KernelIdeal.RunValue

end
-- ==== Proof.LibRealEntries.lean ====
/-
  Extended reals that are real numbers: a small library.

  `IsReal x` says the extended real `x` is a real number (neither infinity). Real entries are closed under
  sums, products and finite sums; an entry below +∞ in absolute value is real; a scatter-add of real updates
  onto a real operand is real everywhere. The coercion ℝ → EReal commutes with finite sums. Last, one algebraic
  law that needs real entries (distributivity fails at the infinities): a row `a` through two affine maps in a
  row, `(a · W₁ + b₁) · W₂ + b₂`, is the row through the collapsed map, `a · (W₁ W₂) + (b₁ · W₂ + b₂)`.
-/
import Idealize.ShloMosaic.PureOps.Ideal

namespace Cert.Hand

open scoped BigOperators

/-- An extended real that is a real number (neither infinity). -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- An extended real strictly between the infinities in absolute value is a real number. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for a row `a`, weights `w₁`, `w₂` (the second at one output column) and biases `b₁`, `b₂`,
    all real, the collapsed affine map `a · (w₁ w₂) + (b₁ · w₂ + b₂)` is the two maps in a row,
    `(a · w₁ + b₁) · w₂ + b₂`. -/
theorem affine_collapse {K L : Type} [Fintype K] [Fintype L]
    (a : K → EReal) (w₁ : K → L → EReal) (b₁ : L → EReal) (w₂ : L → EReal) (b₂ : EReal)
    (ha : ∀ k, IsReal (a k)) (hw₁ : ∀ k l, IsReal (w₁ k l)) (hb₁ : ∀ l, IsReal (b₁ l))
    (hw₂ : ∀ l, IsReal (w₂ l)) (hb₂ : IsReal b₂) :
    (∑ k, a k * ∑ l, w₁ k l * w₂ l) + ((∑ l, b₁ l * w₂ l) + b₂)
      = (∑ l, ((∑ k, a k * w₁ k l) + b₁ l) * w₂ l) + b₂ := by
  choose a' ha' using ha
  choose w₁' hw₁' using hw₁
  choose b₁' hb₁' using hb₁
  choose w₂' hw₂' using hw₂
  obtain ⟨b₂', rfl⟩ := hb₂
  obtain rfl : a = fun k => (a' k : EReal) := funext ha'
  obtain rfl : w₁ = fun k l => (w₁' k l : EReal) := funext fun k => funext (hw₁' k)
  obtain rfl : b₁ = fun l => (b₁' l : EReal) := funext hb₁'
  obtain rfl : w₂ = fun l => (w₂' l : EReal) := funext hw₂'
  simp only [← EReal.coe_mul, ← coe_sum, ← EReal.coe_add]
  congr 1
  simp only [Finset.mul_sum, add_mul, Finset.sum_mul, Finset.sum_add_distrib]
  rw [Finset.sum_comm]
  simp only [mul_assoc, add_assoc]

/-- A scatter-add of real updates onto a real operand is real everywhere: each entry is the operand's entry
    plus a finite sum of updates (the ones that land on it). -/
theorem hostScatterAdd_isReal {s si su : Idealize.ShloMosaic.Shape} (d : Idealize.ShloMosaic.ScatterDims s si su) {w : Nat}
    (x : s.Idx → EReal) (idx : Idealize.ShloMosaic.IVec si w) (upd : su.Idx → EReal)
    (hx : ∀ i, IsReal (x i)) (hu : ∀ j, IsReal (upd j)) (i : s.Idx) :
    IsReal (Idealize.ShloMosaic.Ideal.hostScatterAdd d x idx upd i) :=
  IsReal.add (hx i) (IsReal.sum _ _ fun j _ => hu j)

end Cert.Hand
-- ==== Proof.FiniteEntries.lean ====
/-
  The precondition, read entry by entry. It is the conjunction of six tests, one per float argument:
  `all (|v| < +∞)`. At the extended reals `|v|` is `max v (−v)` and the word `0x7F800000` is `+∞`, so a test that
  holds says every entry of its argument is strictly between the infinities in absolute value — a real number.
-/
import proofs.«105467_j84335977824412_2_alg».proof.Pre_finite_inputs
import proofs.«105467_j84335977824412_2_alg».proof.Proof.LibRealEntries
import Idealize.ShloMosaic.Lib.ReduceAll
import Idealize.ShloMosaic.Lib.Affine
import Idealize.ShloMosaic.Lib.ValueIdx
import Idealize.ShloMosaic.PureOps.Ideal

noncomputable section

namespace Cert.Pre_finite_inputs.Entries

open Idealize.ShloMosaic Idealize.ShloMosaic.ValueIdx Cert.Hand Cert.Pre_finite_inputs

instance : Subsingleton S_.Idx := ⟨fun a b => funext fun d => d.elim0⟩

/-- The f32 word of `+∞` denotes the top extended real. -/
theorem top_word : Ideal.ofBits .f32 0x7F800000#32 = ⊤ := by simp [Ideal.ofBits, Ideal.ieee]

/-- An ordered "less than" that answers 1 is the strict order. -/
theorem lt_of_cmp_olt {a b : EReal} (h : Ideal.cmp .olt a b = 1#1) : a < b := by
  dsimp only [Ideal.cmp] at h
  by_contra hn
  rw [decide_eq_false hn] at h
  exact absurd h (by decide)

variable [Facts]
open Facts

/-- One entry's test `|v[i]| < +∞` that answers 1 makes the entry a real number. -/
theorem real_of_test {S : Shape} (v : FVec Ideal S .f32) (bc : S_.BroadcastsInDim S (![] : Fin 0 → Fin S.rank)) (i : S.Idx)
    (h : cmpf (F := Ideal) .olt (Host.absf v) (broadcastInDim S ![] bc (constant S_ .f32 0x7F800000#32)) i = 1#1) :
    IsReal (v i) := by
  apply isReal_of_abs_lt_top
  have h' : Ideal.cmp .olt (max (v i) (-(v i))) (Ideal.ofBits .f32 0x7F800000#32) = 1#1 := h
  rw [top_word] at h'
  exact lt_of_cmp_olt h'

/-- Under the precondition every entry of `x`, `weight`, `w_review`, `review_feat` and `ci` is a real number. -/
theorem entries_real (x w : FVec Ideal S150000x64 .f32) (wp : FVec Ideal S1x64 .f32) (wr : FVec Ideal S64x64 .f32)
    (rf : FVec Ideal S1250000x64 .f32) (ci : FVec Ideal S150000x1 .f32) (src dst : IVec S1250000 32)
    (hpre : fn (F := Ideal) x w wp wr rf ci src dst = fun _ => 1#1) :
    (∀ i, IsReal (x i)) ∧ (∀ i, IsReal (w i)) ∧ (∀ i, IsReal (wr i)) ∧ (∀ i, IsReal (rf i)) ∧ (∀ i, IsReal (ci i)) := by
  have h0 := congrFun hpre ix0
  dsimp only [fn, fn_part1] at h0
  obtain ⟨h5, hci⟩ := IntOp.andi_eq_one.1 h0
  obtain ⟨h4, hrf⟩ := IntOp.andi_eq_one.1 h5
  obtain ⟨h3, hwr⟩ := IntOp.andi_eq_one.1 h4
  obtain ⟨h2, hwp⟩ := IntOp.andi_eq_one.1 h3
  obtain ⟨hx, hw⟩ := IntOp.andi_eq_one.1 h2
  exact ⟨fun i => real_of_test x bcast_S_S150000x64 i (Host.reduce_andi_all _ _ _ _ ix0 hx i),
    fun i => real_of_test w bcast_S_S150000x64 i (Host.reduce_andi_all _ _ _ _ ix0 hw i),
    fun i => real_of_test wr bcast_S_S64x64 i (Host.reduce_andi_all _ _ _ _ ix0 hwr i),
    fun i => real_of_test rf bcast_S_S1250000x64 i (Host.reduce_andi_all _ _ _ _ ix0 hrf i),
    fun i => real_of_test ci bcast_S_S150000x1 i (Host.reduce_andi_all _ _ _ _ ix0 hci i)⟩

end Cert.Pre_finite_inputs.Entries

end
-- ==== Proof.LibRowGather.lean ====
/-
  Gathering whole rows: `x[idx]` for a matrix `x : [N, D]` and a column of start indices `idx : [E, 1]`.

  It lowers to `stablehlo.gather` with offset_dims `[1]`, collapsed_slice_dims `[0]`, start_index_map `[0]`,
  index_vector_dim 1 and slice sizes `[1, D]`: result entry `(e, f)` is the operand at row `idx[e, 0]` — read as a
  signed integer and clamped into `[0, N − 1]`, as StableHLO's gather clamps every start index — and column `f`.
  The row read (`gatherRow`) depends on `N` and the start indices only, not on the number `D` of columns: two
  matrices of the same height gathered by one index column are read at the same rows.
-/
import Idealize.ShloMosaic.PureOps.ShapeOps
import Idealize.ShloMosaic.Lib.ValueIdx

namespace Cert.Hand

open Idealize.ShloMosaic Idealize.ShloMosaic.ValueIdx

/-- The dimension numbers of a row gather from `[N, D]` by `[E, 1]` start indices into `[E, D]`; their conditions
    `wf` are decided on a program's literal shapes. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row of an `N`-row operand that result row `e` reads: the start index `idx[e, 0]`, read signed and
    clamped into `[0, N − 1]`. -/
def gatherRow {N E w : Nat} (hN : 0 < N) (idx : IVec ⟨2, ![E, 1]⟩ w) (e : Fin E) : Fin N :=
  ⟨min (idx (ix2 e (⟨0, Nat.one_pos⟩ : Fin 1))).toInt.toNat (N - 1), by omega⟩

/-- THE ROW GATHER READ AT `(e, f)`: the operand at row `gatherRow idx e`, column `f`. -/
theorem rowGather_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowGatherDims N D E wf) x idx j
      = x (ix2 (gatherRow hN idx ⟨(j 0).val, idx2_lt0 j⟩) (⟨(j 1).val, idx2_lt1 j⟩ : Fin D)) := by
  unfold Host.gather
  congr 1
  funext a
  refine Fin.ext ?_
  match a with
  | ⟨0, _⟩ =>
    show (rowGatherDims N D E wf).start j idx 0 + (rowGatherDims N D E wf).batchCoord j 0
      + (rowGatherDims N D E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx j ⟨List.idxOf (0 : Fin 2) (rowGatherDims N D E wf).startIndexMap,
        List.idxOf_lt_length_iff.2 (List.mem_singleton.mpr rfl)⟩
        = ix2 (⟨(j 0).val, idx2_lt0 j⟩ : Fin E) (⟨0, Nat.one_pos⟩ : Fin 1) := by
      funext b; refine Fin.ext ?_
      match b with
      | ⟨0, _⟩ => rfl
      | ⟨1, _⟩ => rfl
    rw [hsi]
    rfl
  | ⟨1, _⟩ =>
    show (rowGatherDims N D E wf).start j idx 1 + (rowGatherDims N D E wf).batchCoord j 1
      + (rowGatherDims N D E wf).offCoord j 1 = (j 1).val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept (rowGatherDims N D E wf) (1 : Fin 2)).mpr
      ⟨(show (1 : Fin 2) ∉ ([0] : List (Fin 2)) by decide), List.not_mem_nil⟩)]
    simp only [Nat.zero_add]
    rfl

end Cert.Hand
-- ==== Proof.Bridge.lean ====
/-
  The two programs compute one function. Both aggregate a per-edge message by destination and scale each node's
  row by `ci`; they differ in the message. With `r = row(e)` the row of the node arrays that edge `e` reads (its
  source index, wrapped if negative and clamped into the table — the same for every array gathered, since it
  depends on the height only) and `s = ∑ k, rf[e, k] · w_review[f, k]`:

      kernel      a[r, f] + s · ci[r, 0]      with the node table  a[n, f] = (x[n, f] + w[n, f]) · ci[n, 0]
      reference   (x[r, f] + w[r, f] + s) · ci[r, 0]

  These agree by distributivity of the product over the sum, which on the extended reals needs every term to be a
  real number (at an infinity `(a + b) · c` and `a · c + b · c` can differ). Under the precondition every entry of
  `x`, `weight`, `w_review`, `review_feat` and `ci` is real, so `s` is a finite sum of products of reals. The message
  arrays are then equal entry by entry, and the scatter-add and the final scaling are the same operations of them.
-/
import proofs.«105467_j84335977824412_2_alg».proof.Proof.KernelValue
import proofs.«105467_j84335977824412_2_alg».proof.Proof.Gen.ReferenceIdeal.Read
import proofs.«105467_j84335977824412_2_alg».proof.Proof.LibRowGather
import proofs.«105467_j84335977824412_2_alg».proof.Proof.LibRealEntries

noncomputable section

namespace Cert.Bridge

open Idealize.ShloMosaic Idealize.ShloMosaic.ValueIdx Cert.Hand
open Cert.KernelIdeal.Regions Cert.KernelIdeal.RunValue

/-- THE LAW: for real numbers the product distributes over the sum. -/
theorem edge_law {a b s c : EReal} (ha : IsReal a) (hb : IsReal b) (hs : IsReal s) (hc : IsReal c) :
    (a + b) * c + s * c = (a + b + s) * c := by
  obtain ⟨a, rfl⟩ := ha
  obtain ⟨b, rfl⟩ := hb
  obtain ⟨s, rfl⟩ := hs
  obtain ⟨c, rfl⟩ := hc
  simp only [← EReal.coe_add, ← EReal.coe_mul]
  exact congrArg _ (by ring)

/-! ## The four gathers, read at an edge -/

theorem table_rows : 0 < 150000 := by decide

theorem k_gather64 {α : Type} (T : Cert.KernelIdeal.S150000x64.Idx → α) (idx : IVec Cert.KernelIdeal.S1250000x1 32) (j : Cert.KernelIdeal.S1250000x64.Idx) :
    Host.gather Cert.KernelIdeal.gather_S150000x64_S1250000x1_S1250000x64_1_0_n_n_0_1_164 T idx j
      = T (ix2 (gatherRow table_rows idx ⟨(j 0).val, idx2_lt0 j⟩) (⟨(j 1).val, idx2_lt1 j⟩ : Fin 64)) :=
  rowGather_apply table_rows Cert.KernelIdeal.Facts₀.gather_S150000x64_S1250000x1_S1250000x64_1_0_n_n_0_1_164_wf T idx j
theorem k_gather1 {α : Type} (T : Cert.KernelIdeal.S150000x1.Idx → α) (idx : IVec Cert.KernelIdeal.S1250000x1 32) (j : Cert.KernelIdeal.S1250000x1.Idx) :
    Host.gather Cert.KernelIdeal.gather_S150000x1_S1250000x1_S1250000x1_1_0_n_n_0_1_11 T idx j
      = T (ix2 (gatherRow table_rows idx ⟨(j 0).val, idx2_lt0 j⟩) (⟨(j 1).val, idx2_lt1 j⟩ : Fin 1)) :=
  rowGather_apply table_rows Cert.KernelIdeal.Facts₀.gather_S150000x1_S1250000x1_S1250000x1_1_0_n_n_0_1_11_wf T idx j
theorem r_gather64 {α : Type} (T : Cert.ReferenceIdeal.S150000x64.Idx → α) (idx : IVec Cert.ReferenceIdeal.S1250000x1 32) (j : Cert.ReferenceIdeal.S1250000x64.Idx) :
    Host.gather Cert.ReferenceIdeal.gather_S150000x64_S1250000x1_S1250000x64_1_0_n_n_0_1_164 T idx j
      = T (ix2 (gatherRow table_rows idx ⟨(j 0).val, idx2_lt0 j⟩) (⟨(j 1).val, idx2_lt1 j⟩ : Fin 64)) :=
  rowGather_apply table_rows Cert.ReferenceIdeal.Facts₀.gather_S150000x64_S1250000x1_S1250000x64_1_0_n_n_0_1_164_wf T idx j
theorem r_gather1 {α : Type} (T : Cert.ReferenceIdeal.S150000x1.Idx → α) (idx : IVec Cert.ReferenceIdeal.S1250000x1 32) (j : Cert.ReferenceIdeal.S1250000x1.Idx) :
    Host.gather Cert.ReferenceIdeal.gather_S150000x1_S1250000x1_S1250000x1_1_0_n_n_0_1_11 T idx j
      = T (ix2 (gatherRow table_rows idx ⟨(j 0).val, idx2_lt0 j⟩) (⟨(j 1).val, idx2_lt1 j⟩ : Fin 1)) :=
  rowGather_apply table_rows Cert.ReferenceIdeal.Facts₀.gather_S150000x1_S1250000x1_S1250000x1_1_0_n_n_0_1_11_wf T idx j

/-- The reference's three wrapped index columns are the kernel's. -/
theorem ref_idx7 (src : IVec Cert.KernelIdeal.S1250000 32) : Cert.ReferenceIdeal.Read.val_main_v7 (F := Ideal) src = wrapIdx src := rfl
theorem ref_idx14 (src : IVec Cert.KernelIdeal.S1250000 32) : Cert.ReferenceIdeal.Read.val_main_v14 (F := Ideal) src = wrapIdx src := rfl
theorem ref_idx23 (src : IVec Cert.KernelIdeal.S1250000 32) : Cert.ReferenceIdeal.Read.val_main_v23 (F := Ideal) src = wrapIdx src := rfl

section Entries

variable (x w : Cert.KernelIdeal.S150000x64.Idx → EReal) (wr : Cert.KernelIdeal.S64x64.Idx → EReal) (rf : Cert.KernelIdeal.S1250000x64.Idx → EReal)
  (ci : Cert.KernelIdeal.S150000x1.Idx → EReal) (src dst : IVec Cert.KernelIdeal.S1250000 32)

/-- The row of the node arrays that the edge of result index `j` reads. -/
abbrev edgeRow (j : Cert.KernelIdeal.S1250000x64.Idx) : Fin 150000 := gatherRow table_rows (wrapIdx src) ⟨(j 0).val, idx2_lt0 j⟩

/-- The kernel's gathered node-table entry. -/
theorem k_asrc (j : Cert.KernelIdeal.S1250000x64.Idx) :
    Host.gather Cert.KernelIdeal.gather_S150000x64_S1250000x1_S1250000x64_1_0_n_n_0_1_164 (nodeTable x w ci) (wrapIdx src) j
      = (x (ix2 (edgeRow src j) (⟨(j 1).val, idx2_lt1 j⟩ : Fin 64)) + w (ix2 (edgeRow src j) (⟨(j 1).val, idx2_lt1 j⟩ : Fin 64)))
        * ci (ix2 (edgeRow src j) (⟨0, Nat.one_pos⟩ : Fin 1)) := by
  rw [k_gather64]
  show (x _ + w _) * ci (rowHead (ix2 (edgeRow src j) (⟨(j 1).val, idx2_lt1 j⟩ : Fin 64))) = _
  refine congrArg (fun q => (x _ + w _) * ci q) (funext fun d => ?_)
  match d with
  | ⟨0, _⟩ => rfl
  | ⟨1, _⟩ => rfl

/-- The kernel's gathered `ci` entry, at the head of the edge's row. -/
theorem k_cisrc (j : Cert.KernelIdeal.S1250000x64.Idx) :
    Host.gather Cert.KernelIdeal.gather_S150000x1_S1250000x1_S1250000x1_1_0_n_n_0_1_11 ci (wrapIdx src) (rowHead j) = ci (ix2 (edgeRow src j) (⟨0, Nat.one_pos⟩ : Fin 1)) := by
  rw [k_gather1]

/-- The reference's gathered `x`, `weight` and `ci` entries. -/
theorem r_xsrc (j : Cert.KernelIdeal.S1250000x64.Idx) :
    Cert.ReferenceIdeal.Read.val_main_v8 (F := Ideal) x src j = x (ix2 (edgeRow src j) (⟨(j 1).val, idx2_lt1 j⟩ : Fin 64)) := by
  unfold Cert.ReferenceIdeal.Read.val_main_v8
  rw [ref_idx7, r_gather64]
theorem r_wsrc (j : Cert.KernelIdeal.S1250000x64.Idx) :
    Cert.ReferenceIdeal.Read.val_main_v15 (F := Ideal) w src j = w (ix2 (edgeRow src j) (⟨(j 1).val, idx2_lt1 j⟩ : Fin 64)) := by
  unfold Cert.ReferenceIdeal.Read.val_main_v15
  rw [ref_idx14, r_gather64]
theorem r_cisrc (j : Cert.KernelIdeal.S1250000x64.Idx) :
    Cert.ReferenceIdeal.Read.val_main_v24 (F := Ideal) ci src (Cert.ReferenceIdeal.Read.idx_main_v25 j) = ci (ix2 (edgeRow src j) (⟨0, Nat.one_pos⟩ : Fin 1)) := by
  unfold Cert.ReferenceIdeal.Read.val_main_v24
  rw [ref_idx23, r_gather1]

/-- The two programs' products `review_feat · w_reviewᵀ` at an edge are one sum. -/
theorem dot_eq (j : Cert.KernelIdeal.S1250000x64.Idx) :
    (∑ k : Fin 64, rf (featAt j k) * (transpose Cert.KernelIdeal.S64x64 [1, 0] wr Cert.KernelIdeal.Facts₀.transposes_S64x64_S64x64_1_0) (weightAt j k))
      = ∑ k : Fin 64, rf (Cert.ReferenceIdeal.Read.lidx_main_v1 j k) * (Cert.ReferenceIdeal.Read.val_main_v0 (F := Ideal) wr) (Cert.ReferenceIdeal.Read.ridx_main_v1 j k) := by
  refine Finset.sum_congr rfl fun k _ => ?_
  have e1 : featAt j k = Cert.ReferenceIdeal.Read.lidx_main_v1 j k := funext fun d => by
    match d with
    | ⟨0, _⟩ => rfl
    | ⟨1, _⟩ => rfl
  have e2 : weightAt j k = Cert.ReferenceIdeal.Read.ridx_main_v1 j k := funext fun d => by
    match d with
    | ⟨0, _⟩ => rfl
    | ⟨1, _⟩ => rfl
  rw [e1, e2]
  rfl

variable (hx : ∀ i, IsReal (x i)) (hw : ∀ i, IsReal (w i)) (hwr : ∀ i, IsReal (wr i)) (hrf : ∀ i, IsReal (rf i))
  (hci : ∀ i, IsReal (ci i))

include hwr hrf in
/-- The product at an edge is a real number. -/
theorem dot_real (j : Cert.KernelIdeal.S1250000x64.Idx) :
    IsReal (∑ k : Fin 64, rf (Cert.ReferenceIdeal.Read.lidx_main_v1 j k) * (Cert.ReferenceIdeal.Read.val_main_v0 (F := Ideal) wr) (Cert.ReferenceIdeal.Read.ridx_main_v1 j k)) :=
  IsReal.sum _ _ fun k _ => (hrf _).mul (by rw [Cert.ReferenceIdeal.Read.val_main_v0_apply]; exact hwr _)

include hx hw hwr hrf hci in
/-- THE MESSAGES AGREE, entry by entry. -/
theorem message_eq (j : Cert.KernelIdeal.S1250000x64.Idx) :
    edgeMessage rf (Host.gather Cert.KernelIdeal.gather_S150000x64_S1250000x1_S1250000x64_1_0_n_n_0_1_164 (nodeTable x w ci) (wrapIdx src))
        (Host.gather Cert.KernelIdeal.gather_S150000x1_S1250000x1_S1250000x1_1_0_n_n_0_1_11 ci (wrapIdx src))
        (transpose Cert.KernelIdeal.S64x64 [1, 0] wr Cert.KernelIdeal.Facts₀.transposes_S64x64_S64x64_1_0) j
      = Cert.ReferenceIdeal.Read.val_main_v26 (F := Ideal) x w wr rf ci src j := by
  rw [Cert.ReferenceIdeal.Read.val_main_v26_apply, Cert.ReferenceIdeal.Read.val_main_v17_apply, Cert.ReferenceIdeal.Read.val_main_v16_apply, Cert.ReferenceIdeal.Read.val_main_v25_apply,
    Cert.ReferenceIdeal.Read.val_main_v1_apply, r_xsrc, r_wsrc, r_cisrc]
  show Host.gather Cert.KernelIdeal.gather_S150000x64_S1250000x1_S1250000x64_1_0_n_n_0_1_164 (nodeTable x w ci) (wrapIdx src) j
      + (∑ k : Fin 64, rf (featAt j k) * (transpose Cert.KernelIdeal.S64x64 [1, 0] wr Cert.KernelIdeal.Facts₀.transposes_S64x64_S64x64_1_0) (weightAt j k))
        * Host.gather Cert.KernelIdeal.gather_S150000x1_S1250000x1_S1250000x1_1_0_n_n_0_1_11 ci (wrapIdx src) (rowHead j) = _
  rw [k_asrc, k_cisrc, dot_eq]
  exact edge_law (hx _) (hw _) (dot_real wr rf hwr hrf j) (hci _)

include hx hw hwr hrf hci in
/-- THE RESULTS AGREE: the kernel's value is the reference's last stage. -/
theorem value_eq : kernelValue x w wr rf ci src dst = Cert.ReferenceIdeal.Read.val_main_v31 (F := Ideal) x w wr rf ci src dst := by
  have hmsg : edgeMessage rf (Host.gather Cert.KernelIdeal.gather_S150000x64_S1250000x1_S1250000x64_1_0_n_n_0_1_164 (nodeTable x w ci) (wrapIdx src))
        (Host.gather Cert.KernelIdeal.gather_S150000x1_S1250000x1_S1250000x1_1_0_n_n_0_1_11 ci (wrapIdx src))
        (transpose Cert.KernelIdeal.S64x64 [1, 0] wr Cert.KernelIdeal.Facts₀.transposes_S64x64_S64x64_1_0)
      = Cert.ReferenceIdeal.Read.val_main_v26 (F := Ideal) x w wr rf ci src :=
    funext fun j => message_eq x w wr rf ci src hx hw hwr hrf hci j
  have e1 : Cert.KernelIdeal.scatter_S150000x64_S1250000x1_S1250000x64_1_0_0_1 = Cert.ReferenceIdeal.scatter_S150000x64_S1250000x1_S1250000x64_1_0_0_1 := rfl
  have e2 : broadcastInDim Cert.KernelIdeal.S150000x64 ![] Cert.KernelIdeal.Facts₀.bcast_S_S150000x64 (constant (F := Ideal) Cert.KernelIdeal.S_ .f32 0x00000000#32)
      = Cert.ReferenceIdeal.Read.val_main_v27 (F := Ideal) := rfl
  have e3 : broadcastInDim Cert.KernelIdeal.S1250000x1 ![0] Cert.KernelIdeal.Facts₀.bcast_S1250000_S1250000x1_0 dst = Cert.ReferenceIdeal.Read.val_main_v28 (F := Ideal) dst := rfl
  funext i
  have e4 : rowHead i = Cert.ReferenceIdeal.Read.idx_main_v30 i := funext fun d => by
    match d with
    | ⟨0, _⟩ => rfl
    | ⟨1, _⟩ => rfl
  rw [Cert.ReferenceIdeal.Read.val_main_v31_apply, Cert.ReferenceIdeal.Read.val_main_v30_apply]
  unfold kernelValue Cert.ReferenceIdeal.Read.val_main_v29
  rw [hmsg, e1, e2, e3]
  show _ * ci (rowHead i) = _
  rw [e4]
  rfl

end Entries

end Cert.Bridge

end
-- ==== Proof.lean ====
/-
  A graph convolution's message passing, in three kernel regions against plain array code.

  Both programs return `ci[n] · ∑ over edges e into n of msg[e, ·]`, the sum taken by a scatter-add at the destination
  indices. The reference's message is `(x[r] + weight[r] + rf[e] · w_reviewᵀ) · ci[r]` with `r` the edge's source row;
  the kernel first tabulates `a = (x + weight) · ci` once per node and then forms `a[r] + (rf[e] · w_reviewᵀ) · ci[r]`,
  so that one row gather replaces two. The two messages are equal by distributivity, which on the extended reals
  needs real entries: the precondition (every float input finite) gives them. The word-level kernel differs from its
  idealization by no rewrite, so that conjunct is trivial; the three frames are the generated ones.

  The kernel's run is read through its five segments (KernelRun, KernelValue over the three regions' closed forms
  NodeTable, EdgeMessage, NodeScale), the reference's through its generated run and stages, and Bridge joins the two.
-/
import proofs.«105467_j84335977824412_2_alg».proof.Defs
import proofs.«105467_j84335977824412_2_alg».proof.Proof.Gen.Kernel
import proofs.«105467_j84335977824412_2_alg».proof.Proof.Gen.Kernel.Skeleton
import proofs.«105467_j84335977824412_2_alg».proof.Proof.Gen.Kernel.Launch
import proofs.«105467_j84335977824412_2_alg».proof.Proof.Gen.Kernel.Points
import proofs.«105467_j84335977824412_2_alg».proof.Proof.Gen.Kernel.Frame
import proofs.«105467_j84335977824412_2_alg».proof.Proof.Gen.KernelIdeal
import proofs.«105467_j84335977824412_2_alg».proof.Proof.Gen.KernelIdeal.Skeleton
import proofs.«105467_j84335977824412_2_alg».proof.Proof.Gen.KernelIdeal.Launch
import proofs.«105467_j84335977824412_2_alg».proof.Proof.Gen.KernelIdeal.Points
import proofs.«105467_j84335977824412_2_alg».proof.Proof.Gen.KernelIdeal.Frame
import proofs.«105467_j84335977824412_2_alg».proof.Proof.Gen.ReferenceIdeal
import proofs.«105467_j84335977824412_2_alg».proof.Proof.Gen.ReferenceIdeal.Run
import proofs.«105467_j84335977824412_2_alg».proof.Proof.Gen.ReferenceIdeal.Read
import proofs.«105467_j84335977824412_2_alg».proof.Proof.Gen.Pre_finite_inputs
import proofs.«105467_j84335977824412_2_alg».proof.Proof.KernelValue
import proofs.«105467_j84335977824412_2_alg».proof.Proof.FiniteEntries
import proofs.«105467_j84335977824412_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end with the result array at one function of the arguments: the kernel's
    run read through its segments, the reference's generated run, and the bridge between the two terms under the
    precondition's real entries. -/
theorem algebraic : Cert.algebraic_KernelIdeal_ReferenceIdeal := by
  intro m ρ m' ρ' hpre hagree
  refine ⟨fun c => Cert.KernelIdeal.RunValue.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨hx, hw, hwr, hrf, hci⟩ := Cert.Pre_finite_inputs.Entries.entries_real _ _ _ _ _ _ _ _ (hpre c)
  rw [Cert.ReferenceIdeal.Read.val_main_v31_eq, a0, a1, a3, a4, a5, a6, a7]
  exact (Cert.Bridge.value_eq _ _ _ _ _ _ _ hx hw hwr hrf hci).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
